-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x8192x64 : Shape := ⟨3, ![8, 8192, 64]⟩
abbrev S1048576 : Shape := ⟨1, ![1048576]⟩
abbrev S_ : Shape := ⟨0, ![]⟩

class Facts : Prop where
  bcast_S_S8x8192x64 : S_.BroadcastsInDim S8x8192x64 (![] : Fin 0 → Fin S8x8192x64.rank)
  reducesTo_S8x8192x64_S_d0_1_2 : S8x8192x64.ReducesTo [0, 1, 2] S_
  h_S_ : 0 < S_.numel

variable [Facts]

def fn {F : FTy → Type} [FloatOps F] (main_arg0 : FVec F S8x8192x64 .f32) (main_arg1 : IVec S1048576 32) (main_arg2 : IVec S1048576 32) : IVec S_ 1 :=
  let main_v0 : FVec F S8x8192x64 .f32 := Host.absf main_arg0
  let main_cst : FVec F S_ .f32 := constant S_ .f32 0x7F800000#32
  let main_v1 : FVec F S8x8192x64 .f32 := broadcastInDim S8x8192x64 ![] bcast_S_S8x8192x64 main_cst
  let main_v2 : IVec S8x8192x64 1 := cmpf .olt main_v0 main_v1
  let main_c : IVec S_ 1 := constantI S_ 1 1#1
  let main_v3 : IVec S_ 1 := (fun x v => Host.reduce IntOp.andi x v reducesTo_S8x8192x64_S_d0_1_2 h_S_) main_v2 main_c
  main_v3
-- ==== Kernel.lean ====
abbrev S8x8192x64 : Shape := ⟨3, ![8, 8192, 64]⟩
abbrev S1048576 : Shape := ⟨1, ![1048576]⟩
abbrev S65536x64 : Shape := ⟨2, ![65536, 64]⟩
abbrev S_ : Shape := ⟨0, ![]⟩
abbrev S1048576x1 : Shape := ⟨2, ![1048576, 1]⟩
abbrev S1048576x64 : Shape := ⟨2, ![1048576, 64]⟩
abbrev S65536 : Shape := ⟨1, ![65536]⟩
abbrev S65536x1 : Shape := ⟨2, ![65536, 1]⟩
abbrev S4096x64 : Shape := ⟨2, ![4096, 64]⟩
abbrev S4096x1 : Shape := ⟨2, ![4096, 1]⟩

abbrev nBuf : Space → Nat
  | .hbm => 26
  | .vmem => 8
  | .smem => 0
  | _ => 0

abbrev bufTy : (tb : Table) → Fin (tcTables nBuf tb) → BufTy
  | .hbm, ⟨0, _⟩ => ⟨S8x8192x64, .f32⟩
  | .hbm, ⟨1, _⟩ => ⟨S1048576, .i32⟩
  | .hbm, ⟨2, _⟩ => ⟨S1048576, .i32⟩
  | .hbm, ⟨3, _⟩ => ⟨S65536x64, .f32⟩
  | .hbm, ⟨4, _⟩ => ⟨S_, .i32⟩
  | .hbm, ⟨5, _⟩ => ⟨S1048576, .i32⟩
  | .hbm, ⟨6, _⟩ => ⟨S1048576, .i1⟩
  | .hbm, ⟨7, _⟩ => ⟨S_, .i32⟩
  | .hbm, ⟨8, _⟩ => ⟨S1048576, .i32⟩
  | .hbm, ⟨9, _⟩ => ⟨S1048576, .i32⟩
  | .hbm, ⟨10, _⟩ => ⟨S1048576, .i32⟩
  | .hbm, ⟨11, _⟩ => ⟨S1048576x1, .i32⟩
  | .hbm, ⟨12, _⟩ => ⟨S1048576x64, .f32⟩
  | .hbm, ⟨13, _⟩ => ⟨S_, .f32⟩
  | .hbm, ⟨14, _⟩ => ⟨S65536x64, .f32⟩
  | .hbm, ⟨15, _⟩ => ⟨S1048576x1, .i32⟩
  | .hbm, ⟨16, _⟩ => ⟨S65536x64, .f32⟩
  | .hbm, ⟨17, _⟩ => ⟨S_, .f32⟩
  | .hbm, ⟨18, _⟩ => ⟨S1048576, .f32⟩
  | .hbm, ⟨19, _⟩ => ⟨S_, .f32⟩
  | .hbm, ⟨20, _⟩ => ⟨S65536, .f32⟩
  | .hbm, ⟨21, _⟩ => ⟨S1048576x1, .i32⟩
  | .hbm, ⟨22, _⟩ => ⟨S65536, .f32⟩
  | .hbm, ⟨23, _⟩ => ⟨S65536x1, .f32⟩
  | .hbm, ⟨24, _⟩ => ⟨S65536x64, .f32⟩
  | .hbm, ⟨25, _⟩ => ⟨S8x8192x64, .f32⟩
  | .local _ .vmem, ⟨0, _⟩ => ⟨S4096x64, .f32⟩
  | .local _ .vmem, ⟨1, _⟩ => ⟨S4096x64, .f32⟩
  | .local _ .vmem, ⟨2, _⟩ => ⟨S4096x64, .f32⟩
  | .local _ .vmem, ⟨3, _⟩ => ⟨S4096x64, .f32⟩
  | .local _ .vmem, ⟨4, _⟩ => ⟨S4096x1, .f32⟩
  | .local _ .vmem, ⟨5, _⟩ => ⟨S4096x1, .f32⟩
  | .local _ .vmem, ⟨6, _⟩ => ⟨S4096x64, .f32⟩
  | .local _ .vmem, ⟨7, _⟩ => ⟨S4096x64, .f32⟩
  | _, _ => ⟨S8x8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S8x8192x64_S65536x64 : S8x8192x64.ShapeCasts S65536x64
  bcast_S_S1048576 : S_.BroadcastsInDim S1048576 (![] : Fin 0 → Fin S1048576.rank)
  bcast_S1048576_S1048576x1_0 : S1048576.BroadcastsInDim S1048576x1 (![0] : Fin 1 → Fin S1048576x1.rank)
  bcast_S_S65536x64 : S_.BroadcastsInDim S65536x64 (![] : Fin 0 → Fin S65536x64.rank)
  bcast_S_S65536 : S_.BroadcastsInDim S65536 (![] : Fin 0 → Fin S65536.rank)
  shapeCasts_S65536_S65536x1 : S65536.ShapeCasts S65536x1
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  broadcasts_S4096x1_S4096x64 : S4096x1.Broadcasts S4096x64
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  shapeCasts_S65536x64_S8x8192x64 : S65536x64.ShapeCasts S8x8192x64
  gather_S65536x64_S1048576x1_S1048576x64_1_0_n_n_0_1_164_wf : GatherDims.WF S65536x64 S1048576x1 S1048576x64 [1] [0] [] [0] [] 1 ![1, 64]
  scatter_S65536x64_S1048576x1_S1048576x64_1_0_0_1_wf : ScatterDims.WF S65536x64 S1048576x1 S1048576x64 [1] [0] [0] 1
  scatter_S65536_S1048576x1_S1048576_n_0_0_1_wf : ScatterDims.WF S65536 S1048576x1 S1048576 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x64.size a ≤ S65536x64.size a
  hwx0_0 : ∀ i : grid0.Coords, EltTy.bits .f32 = 32 ∨ (Rect.block (s := S65536x64) S4096x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x64.size a ≤ S65536x64.size a
  hwx0_1 : ∀ i : grid0.Coords, EltTy.bits .f32 = 32 ∨ (Rect.block (s := S65536x64) S4096x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x1.size a ≤ S65536x1.size a
  hwx0_2 : ∀ i : grid0.Coords, EltTy.bits .f32 = 32 ∨ (Rect.block (s := S65536x1) S4096x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x64.size a ≤ S65536x64.size a
  hwx0_3 : ∀ i : grid0.Coords, EltTy.bits .f32 = 32 ∨ (Rect.block (s := S65536x64) S4096x64.size (cc0_transform_3 i) (hinb0_3 i)).WholeWords (EltTy.packing .f32)

variable [Facts₀]

def gather_S65536x64_S1048576x1_S1048576x64_1_0_n_n_0_1_164 : GatherDims S65536x64 S1048576x1 S1048576x64 where
  offsetDims := [1]
  collapsedSliceDims := [0]
  operandBatchingDims := []
  startIndicesBatchingDims := []
  startIndexMap := [0]
  indexVectorDim := 1
  sliceSizes := ![1, 64]
  wf := gather_S65536x64_S1048576x1_S1048576x64_1_0_n_n_0_1_164_wf
def scatter_S65536x64_S1048576x1_S1048576x64_1_0_0_1 : ScatterDims S65536x64 S1048576x1 S1048576x64 where
  updateWindowDims := [1]
  insertedWindowDims := [0]
  scatterDimsToOperandDims := [0]
  indexVectorDim := 1
  wf := scatter_S65536x64_S1048576x1_S1048576x64_1_0_0_1_wf
def scatter_S65536_S1048576x1_S1048576_n_0_0_1 : ScatterDims S65536 S1048576x1 S1048576 where
  updateWindowDims := []
  insertedWindowDims := [0]
  scatterDimsToOperandDims := [0]
  indexVectorDim := 1
  wf := scatter_S65536_S1048576x1_S1048576_n_0_0_1_wf

abbrev win0_0 : Pipeline.Window sig grid0 :=
  Pipeline.Window.ofSpec (Memref.whole main_v0) S4096x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S4096x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S4096x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S4096x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x8192x64 : Shape := ⟨3, ![8, 8192, 64]⟩
abbrev S1048576 : Shape := ⟨1, ![1048576]⟩
abbrev S65536x64 : Shape := ⟨2, ![65536, 64]⟩
abbrev S_ : Shape := ⟨0, ![]⟩
abbrev S1048576x1 : Shape := ⟨2, ![1048576, 1]⟩
abbrev S1048576x64 : Shape := ⟨2, ![1048576, 64]⟩
abbrev S65536 : Shape := ⟨1, ![65536]⟩
abbrev S65536x1 : Shape := ⟨2, ![65536, 1]⟩

abbrev nBuf : Space → Nat
  | .hbm => 36
  | .vmem => 0
  | .smem => 0
  | _ => 0

abbrev bufTy : (tb : Table) → Fin (tcTables nBuf tb) → BufTy
  | .hbm, ⟨0, _⟩ => ⟨S8x8192x64, .f32⟩
  | .hbm, ⟨1, _⟩ => ⟨S1048576, .i32⟩
  | .hbm, ⟨2, _⟩ => ⟨S1048576, .i32⟩
  | .hbm, ⟨3, _⟩ => ⟨S65536x64, .f32⟩
  | .hbm, ⟨4, _⟩ => ⟨S_, .i32⟩
  | .hbm, ⟨5, _⟩ => ⟨S1048576, .i32⟩
  | .hbm, ⟨6, _⟩ => ⟨S1048576, .i1⟩
  | .hbm, ⟨7, _⟩ => ⟨S_, .i32⟩
  | .hbm, ⟨8, _⟩ => ⟨S1048576, .i32⟩
  | .hbm, ⟨9, _⟩ => ⟨S1048576, .i32⟩
  | .hbm, ⟨10, _⟩ => ⟨S1048576, .i32⟩
  | .hbm, ⟨11, _⟩ => ⟨S1048576x1, .i32⟩
  | .hbm, ⟨12, _⟩ => ⟨S1048576x64, .f32⟩
  | .hbm, ⟨13, _⟩ => ⟨S_, .f32⟩
  | .hbm, ⟨14, _⟩ => ⟨S65536x64, .f32⟩
  | .hbm, ⟨15, _⟩ => ⟨S1048576x1, .i32⟩
  | .hbm, ⟨16, _⟩ => ⟨S65536x64, .f32⟩
  | .hbm, ⟨17, _⟩ => ⟨S_, .f32⟩
  | .hbm, ⟨18, _⟩ => ⟨S1048576, .f32⟩
  | .hbm, ⟨19, _⟩ => ⟨S_, .f32⟩
  | .hbm, ⟨20, _⟩ => ⟨S65536, .f32⟩
  | .hbm, ⟨21, _⟩ => ⟨S1048576x1, .i32⟩
  | .hbm, ⟨22, _⟩ => ⟨S65536, .f32⟩
  | .hbm, ⟨23, _⟩ => ⟨S_, .f32⟩
  | .hbm, ⟨24, _⟩ => ⟨S65536, .f32⟩
  | .hbm, ⟨25, _⟩ => ⟨S65536, .f32⟩
  | .hbm, ⟨26, _⟩ => ⟨S65536x1, .f32⟩
  | .hbm, ⟨27, _⟩ => ⟨S65536x64, .f32⟩
  | .hbm, ⟨28, _⟩ => ⟨S65536x64, .f32⟩
  | .hbm, ⟨29, _⟩ => ⟨S65536x1, .f32⟩
  | .hbm, ⟨30, _⟩ => ⟨S_, .f32⟩
  | .hbm, ⟨31, _⟩ => ⟨S65536x1, .f32⟩
  | .hbm, ⟨32, _⟩ => ⟨S65536x1, .i1⟩
  | .hbm, ⟨33, _⟩ => ⟨S65536x64, .i1⟩
  | .hbm, ⟨34, _⟩ => ⟨S65536x64, .f32⟩
  | .hbm, ⟨35, _⟩ => ⟨S8x8192x64, .f32⟩
  | _, _ => ⟨S8x8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_call0_v0 : Ref sig .tc := ⟨.hbm, 33, rfl⟩
abbrev main_v23 : Ref sig .tc := ⟨.hbm, 34, rfl⟩
abbrev main_v24 : Ref sig .tc := ⟨.hbm, 35, rfl⟩

abbrev nD : Nat := 1
abbrev τ : Topo := Topo.v7x

variable {F : FTy → Type} [FloatOps F]

class Facts₀ : Prop where
  shapeCasts_S8x8192x64_S65536x64 : S8x8192x64.ShapeCasts S65536x64
  bcast_S_S1048576 : S_.BroadcastsInDim S1048576 (![] : Fin 0 → Fin S1048576.rank)
  bcast_S1048576_S1048576x1_0 : S1048576.BroadcastsInDim S1048576x1 (![0] : Fin 1 → Fin S1048576x1.rank)
  bcast_S_S65536x64 : S_.BroadcastsInDim S65536x64 (![] : Fin 0 → Fin S65536x64.rank)
  bcast_S_S65536 : S_.BroadcastsInDim S65536 (![] : Fin 0 → Fin S65536.rank)
  bcast_S65536_S65536x1_0 : S65536.BroadcastsInDim S65536x1 (![0] : Fin 1 → Fin S65536x1.rank)
  bcast_S65536x1_S65536x64_0_1 : S65536x1.BroadcastsInDim S65536x64 (![0, 1] : Fin 2 → Fin S65536x64.rank)
  bcast_S_S65536x1 : S_.BroadcastsInDim S65536x1 (![] : Fin 0 → Fin S65536x1.rank)
  shapeCasts_S65536x64_S8x8192x64 : S65536x64.ShapeCasts S8x8192x64
  gather_S65536x64_S1048576x1_S1048576x64_1_0_n_n_0_1_164_wf : GatherDims.WF S65536x64 S1048576x1 S1048576x64 [1] [0] [] [0] [] 1 ![1, 64]
  scatter_S65536x64_S1048576x1_S1048576x64_1_0_0_1_wf : ScatterDims.WF S65536x64 S1048576x1 S1048576x64 [1] [0] [0] 1
  scatter_S65536_S1048576x1_S1048576_n_0_0_1_wf : ScatterDims.WF S65536 S1048576x1 S1048576 [] [0] [0] 1

variable [Facts₀]

def gather_S65536x64_S1048576x1_S1048576x64_1_0_n_n_0_1_164 : GatherDims S65536x64 S1048576x1 S1048576x64 where
  offsetDims := [1]
  collapsedSliceDims := [0]
  operandBatchingDims := []
  startIndicesBatchingDims := []
  startIndexMap := [0]
  indexVectorDim := 1
  sliceSizes := ![1, 64]
  wf := gather_S65536x64_S1048576x1_S1048576x64_1_0_n_n_0_1_164_wf
def scatter_S65536x64_S1048576x1_S1048576x64_1_0_0_1 : ScatterDims S65536x64 S1048576x1 S1048576x64 where
  updateWindowDims := [1]
  insertedWindowDims := [0]
  scatterDimsToOperandDims := [0]
  indexVectorDim := 1
  wf := scatter_S65536x64_S1048576x1_S1048576x64_1_0_0_1_wf
def scatter_S65536_S1048576x1_S1048576_n_0_0_1 : ScatterDims S65536 S1048576x1 S1048576 where
  updateWindowDims := []
  insertedWindowDims := [0]
  scatterDimsToOperandDims := [0]
  indexVectorDim := 1
  wf := scatter_S65536_S1048576x1_S1048576_n_0_0_1_wf

class Facts : Prop extends Facts₀ where

variable [Facts]
-- ==== Proof.RefRun.lean ====
/-
  The reference's run, read back: its @main is a straight line of host operations, so every weakly fair
  execution ends with the result buffer holding the operations' composed value of the three arguments, and
  the arguments unchanged.

  The composed value is stated over named stages, in the order the program computes them:
  `rows` (the features as 65536 rows of 64), `srcRows` (the source indices, a negative one wrapped by
  adding 65536, as a column), `msgSum` (row `dst e` accumulates row `src e` of the features, over all
  edges `e`), `degree` (entry `dst e` accumulates a 1 per edge) and `tail` (the mean where the degree
  is positive, the old row elsewhere), reshaped back to 8 × 8192 × 64. `degree` is built from float
  constants and the integer argument only, so its float instance is written out at each constant.
-/
import proofs.«104848_j57664230916668_1_alg».proof.Proof.Gen.ReferenceIdeal
import Idealize.ShloMosaic.Lib.StableHlo.Run

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations, in order; the call of `@_where` stands as its two operations over that call's buffers. -/
abbrev ops : List (HloOp τ sig (Elt F)) :=
  [ reshape main_arg0 main_v0 rfl shapeCasts_S8x8192x64_S65536x64,
    nullary main_c (constantI S_ 32 0#32),
    unary main_c main_v1 (broadcastInDim S1048576 ![] bcast_S_S1048576 : (⟨S_, .i32⟩ : BufTy).Contents (Elt F) → (⟨S1048576, .i32⟩ : BufTy).Contents (Elt F)),
    binary main_arg1 main_v1 main_v2 (cmpi .slt : (⟨S1048576, .i32⟩ : BufTy).Contents (Elt F) → (⟨S1048576, .i32⟩ : BufTy).Contents (Elt F) → (⟨S1048576, .i1⟩ : BufTy).Contents (Elt F)),
    nullary main_c_0 (constantI S_ 32 65536#32),
    unary main_c_0 main_v3 (broadcastInDim S1048576 ![] bcast_S_S1048576 : (⟨S_, .i32⟩ : BufTy).Contents (Elt F) → (⟨S1048576, .i32⟩ : BufTy).Contents (Elt F)),
    binary main_arg1 main_v3 main_v4 (addi : (⟨S1048576, .i32⟩ : BufTy).Contents (Elt F) → (⟨S1048576, .i32⟩ : BufTy).Contents (Elt F) → (⟨S1048576, .i32⟩ : BufTy).Contents (Elt F)),
    ternary main_v2 main_v4 main_arg1 main_v5 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    unary main_v5 main_v6 (broadcastInDim S1048576x1 ![0] bcast_S1048576_S1048576x1_0 : (⟨S1048576, .i32⟩ : BufTy).Contents (Elt F) → (⟨S1048576x1, .i32⟩ : BufTy).Contents (Elt F)),
    binary main_v0 main_v6 main_v7 ((fun x i => Host.gather gather_S65536x64_S1048576x1_S1048576x64_1_0_n_n_0_1_164 x i) : (⟨S65536x64, .f32⟩ : BufTy).Contents (Elt F) → (⟨S1048576x1, .i32⟩ : BufTy).Contents (Elt F) → (⟨S1048576x64, .f32⟩ : BufTy).Contents (Elt F)),
    nullary main_cst (constant S_ .f32 0x00000000#32),
    unary main_cst main_v8 (broadcastInDim S65536x64 ![] bcast_S_S65536x64 : (⟨S_, .f32⟩ : BufTy).Contents (Elt F) → (⟨S65536x64, .f32⟩ : BufTy).Contents (Elt F)),
    unary main_arg2 main_v9 (broadcastInDim S1048576x1 ![0] bcast_S1048576_S1048576x1_0 : (⟨S1048576, .i32⟩ : BufTy).Contents (Elt F) → (⟨S1048576x1, .i32⟩ : BufTy).Contents (Elt F)),
    ternary main_v8 main_v9 main_v7 main_v10 ((fun x i u => Host.scatterAdd scatter_S65536x64_S1048576x1_S1048576x64_1_0_0_1 x i u) : (⟨S65536x64, .f32⟩ : BufTy).Contents (Elt F) → (⟨S1048576x1, .i32⟩ : BufTy).Contents (Elt F) → (⟨S1048576x64, .f32⟩ : BufTy).Contents (Elt F) → (⟨S65536x64, .f32⟩ : BufTy).Contents (Elt F)),
    nullary main_cst_1 (constant S_ .f32 0x3F800000#32),
    unary main_cst_1 main_v11 (broadcastInDim S1048576 ![] bcast_S_S1048576 : (⟨S_, .f32⟩ : BufTy).Contents (Elt F) → (⟨S1048576, .f32⟩ : BufTy).Contents (Elt F)),
    nullary main_cst_2 (constant S_ .f32 0x00000000#32),
    unary main_cst_2 main_v12 (broadcastInDim S65536 ![] bcast_S_S65536 : (⟨S_, .f32⟩ : BufTy).Contents (Elt F) → (⟨S65536, .f32⟩ : BufTy).Contents (Elt F)),
    unary main_arg2 main_v13 (broadcastInDim S1048576x1 ![0] bcast_S1048576_S1048576x1_0 : (⟨S1048576, .i32⟩ : BufTy).Contents (Elt F) → (⟨S1048576x1, .i32⟩ : BufTy).Contents (Elt F)),
    ternary main_v12 main_v13 main_v11 main_v14 ((fun x i u => Host.scatterAdd scatter_S65536_S1048576x1_S1048576_n_0_0_1 x i u) : (⟨S65536, .f32⟩ : BufTy).Contents (Elt F) → (⟨S1048576x1, .i32⟩ : BufTy).Contents (Elt F) → (⟨S1048576, .f32⟩ : BufTy).Contents (Elt F) → (⟨S65536, .f32⟩ : BufTy).Contents (Elt F)),
    nullary main_cst_3 (constant S_ .f32 0x3F800000#32),
    unary main_cst_3 main_v15 (broadcastInDim S65536 ![] bcast_S_S65536 : (⟨S_, .f32⟩ : BufTy).Contents (Elt F) → (⟨S65536, .f32⟩ : BufTy).Contents (Elt F)),
    binary main_v14 main_v15 main_v16 (maximumf : (⟨S65536, .f32⟩ : BufTy).Contents (Elt F) → (⟨S65536, .f32⟩ : BufTy).Contents (Elt F) → (⟨S65536, .f32⟩ : BufTy).Contents (Elt F)),
    unary main_v16 main_v17 (broadcastInDim S65536x1 ![0] bcast_S65536_S65536x1_0 : (⟨S65536, .f32⟩ : BufTy).Contents (Elt F) → (⟨S65536x1, .f32⟩ : BufTy).Contents (Elt F)),
    unary main_v17 main_v18 (broadcastInDim S65536x64 ![0, 1] bcast_S65536x1_S65536x64_0_1 : (⟨S65536x1, .f32⟩ : BufTy).Contents (Elt F) → (⟨S65536x64, .f32⟩ : BufTy).Contents (Elt F)),
    binary main_v10 main_v18 main_v19 (Host.divf : (⟨S65536x64, .f32⟩ : BufTy).Contents (Elt F) → (⟨S65536x64, .f32⟩ : BufTy).Contents (Elt F) → (⟨S65536x64, .f32⟩ : BufTy).Contents (Elt F)),
    unary main_v14 main_v20 (broadcastInDim S65536x1 ![0] bcast_S65536_S65536x1_0 : (⟨S65536, .f32⟩ : BufTy).Contents (Elt F) → (⟨S65536x1, .f32⟩ : BufTy).Contents (Elt F)),
    nullary main_cst_4 (constant S_ .f32 0x00000000#32),
    unary main_cst_4 main_v21 (broadcastInDim S65536x1 ![] bcast_S_S65536x1 : (⟨S_, .f32⟩ : BufTy).Contents (Elt F) → (⟨S65536x1, .f32⟩ : BufTy).Contents (Elt F)),
    binary main_v20 main_v21 main_v22 (cmpf .ogt : (⟨S65536x1, .f32⟩ : BufTy).Contents (Elt F) → (⟨S65536x1, .f32⟩ : BufTy).Contents (Elt F) → (⟨S65536x1, .i1⟩ : BufTy).Contents (Elt F)),
    TRef.unary (TRef.of (T := ⟨S65536x1, .i1⟩) main_v22) main_call0.v0 (broadcastInDim S65536x64 ![0, 1] bcast_S65536x1_S65536x64_0_1),
    TRef.ternary main_call0.v0 (TRef.of (T := ⟨S65536x64, .f32⟩) main_v19) (TRef.of (T := ⟨S65536x64, .f32⟩) main_v0) main_call0.v1 select,
    reshape main_v23 main_v24 rfl shapeCasts_S65536x64_S8x8192x64 ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub .., nullary_bufs_sub .., unary_bufs_sub .., binary_bufs_sub .., unary_bufs_sub .., ternary_bufs_sub .., reshape_bufs_sub ..⟩

/-! ## The stages -/

/-- The features as one row per node. -/
def rows (x0 : (⟨S8x8192x64, .f32⟩ : BufTy).Contents (Elt F)) : (⟨S65536x64, .f32⟩ : BufTy).Contents (Elt F) :=
  shapeCast _ x0 shapeCasts_S8x8192x64_S65536x64

/-- The source node of each edge, a negative index wrapped once, as a column. -/
def srcRows (x1 : (⟨S1048576, .i32⟩ : BufTy).Contents (Elt F)) : (⟨S1048576x1, .i32⟩ : BufTy).Contents (Elt F) :=
  broadcastInDim S1048576x1 ![0] bcast_S1048576_S1048576x1_0
    (select (cmpi .slt x1 (broadcastInDim S1048576 ![] bcast_S_S1048576 (constantI S_ 32 0#32)))
      (addi x1 (broadcastInDim S1048576 ![] bcast_S_S1048576 (constantI S_ 32 65536#32))) x1)

/-- The destination node of each edge, as a column. -/
def dstRows (x2 : (⟨S1048576, .i32⟩ : BufTy).Contents (Elt F)) : (⟨S1048576x1, .i32⟩ : BufTy).Contents (Elt F) :=
  broadcastInDim S1048576x1 ![0] bcast_S1048576_S1048576x1_0 x2

/-- Per node, the sum of the feature rows of its incoming edges' sources. -/
def msgSum (x0 : (⟨S8x8192x64, .f32⟩ : BufTy).Contents (Elt F)) (x1 x2 : (⟨S1048576, .i32⟩ : BufTy).Contents (Elt F)) : (⟨S65536x64, .f32⟩ : BufTy).Contents (Elt F) :=
  Host.scatterAdd scatter_S65536x64_S1048576x1_S1048576x64_1_0_0_1
    (broadcastInDim S65536x64 ![] bcast_S_S65536x64 (constant (F := F) S_ .f32 0x00000000#32))
    (dstRows (F := F) x2)
    (Host.gather gather_S65536x64_S1048576x1_S1048576x64_1_0_n_n_0_1_164 (rows x0) (srcRows (F := F) x1))

/-- Per node, the number of its incoming edges: a 1 accumulated per edge. -/
def degree (x2 : (⟨S1048576, .i32⟩ : BufTy).Contents (Elt F)) : (⟨S65536, .f32⟩ : BufTy).Contents (Elt F) :=
  Host.scatterAdd scatter_S65536_S1048576x1_S1048576_n_0_0_1
    (broadcastInDim S65536 ![] bcast_S_S65536 (constant (F := F) S_ .f32 0x00000000#32))
    (dstRows (F := F) x2)
    (broadcastInDim S1048576 ![] bcast_S_S1048576 (constant (F := F) S_ .f32 0x3F800000#32))

/-- The degree against 0, per node, spread over the node's features. -/
def hasEdge (d : (⟨S65536, .f32⟩ : BufTy).Contents (Elt F)) : (⟨S65536x64, .i1⟩ : BufTy).Contents (Elt F) :=
  broadcastInDim S65536x64 ![0, 1] bcast_S65536x1_S65536x64_0_1
    (cmpf .ogt (broadcastInDim S65536x1 ![0] bcast_S65536_S65536x1_0 d)
      (broadcastInDim S65536x1 ![] bcast_S_S65536x1 (constant (F := F) S_ .f32 0x00000000#32)))

/-- The degree clamped below at 1, per node, spread over the node's features. -/
def denom (d : (⟨S65536, .f32⟩ : BufTy).Contents (Elt F)) : (⟨S65536x64, .f32⟩ : BufTy).Contents (Elt F) :=
  broadcastInDim S65536x64 ![0, 1] bcast_S65536x1_S65536x64_0_1
    (broadcastInDim S65536x1 ![0] bcast_S65536_S65536x1_0
      (maximumf d (broadcastInDim S65536 ![] bcast_S_S65536 (constant (F := F) S_ .f32 0x3F800000#32))))

/-- The mean of the incoming rows where there is one, the node's own row where there is none. -/
def tail (h s : (⟨S65536x64, .f32⟩ : BufTy).Contents (Elt F)) (d : (⟨S65536, .f32⟩ : BufTy).Contents (Elt F)) : (⟨S65536x64, .f32⟩ : BufTy).Contents (Elt F) :=
  select (hasEdge (F := F) d) (Host.divf s (denom (F := F) d)) h

/-- The whole result from the three arguments. -/
def result (x0 : (⟨S8x8192x64, .f32⟩ : BufTy).Contents (Elt F)) (x1 x2 : (⟨S1048576, .i32⟩ : BufTy).Contents (Elt F)) : (⟨S8x8192x64, .f32⟩ : BufTy).Contents (Elt F) :=
  shapeCast _ (tail (F := F) (rows x0) (msgSum x0 x1 x2) (degree (F := F) x2)) shapeCasts_S65536x64_S8x8192x64

set_option maxHeartbeats 2000000 in
/-- On every device, from any memory with zero counters: every weakly fair execution of @main terminates with the
    result buffer at `result` of the arguments' contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v24) = result (F := F) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v24).trans (by after_results_simp <;> rfl),
      (h c main_arg0).trans (by after_results_simp <;> rfl),
      (h c main_arg1).trans (by after_results_simp <;> rfl),
      (h c main_arg2).trans (by after_results_simp <;> rfl)⟩)
    (run_seq scopedRefs_eq scopedSems_eq defs main (fun _ => ops) main_eq (fun _ => ops_sub) m ρ)

end Cert.RefRun

end
-- ==== Proof.Update.lean ====
/-
  The node update both programs compute, as ONE function of three arrays, entry by entry.

  With `h` the node features (65536 nodes × 64 features), `s` the per-node sums of incoming messages
  (same shape) and `d` the per-node in-degree, the new feature of node `n`, feature `f`, is

      s(n, f) / max(d(n), 1)   if d(n) > 0,      h(n, f)   otherwise.

  Only the node coordinate of an entry selects the degree. The degree reaches the kernel as a column
  (65536 × 1) and the reference as a vector (65536); `updateCol` and `update` are the same function
  read through the two layouts (`updateCol_reshape`). The numbers 1 and 0 are kept as the float
  patterns both programs print; nothing here evaluates them.
-/
import Idealize.ShloMosaic.PureOps.Ideal
import Idealize.ShloMosaic.PureOps.Ideal.Laws
import Idealize.ShloMosaic.Lib.ValueIdx
import Idealize.ShloMosaic.Lib.Pipeline.Value

noncomputable section

namespace Cert.Update

open Idealize.ShloMosaic Idealize.ShloMosaic.ValueIdx

/-- nodes × features, nodes, and nodes as a column. -/
abbrev NF : Shape := ⟨2, ![65536, 64]⟩
abbrev Nv : Shape := ⟨1, ![65536]⟩
abbrev Nc : Shape := ⟨2, ![65536, 1]⟩

/-- One entry of the update from the node's degree `d`, the entry's message sum `s` and its old value `x`:
    the mean `s / max d 1` where the node has an incoming edge (`d > 0`), the old value where it has none. -/
def entry (d s x : Ideal .f32) : Ideal .f32 :=
  Scalar.select (FloatOps.cmpf .ogt d (FloatOps.ofBits (F := Ideal) .f32 0x00000000#32))
    (FloatOps.divf s (FloatOps.maximumf d (FloatOps.ofBits (F := Ideal) .f32 0x3F800000#32))) x

/-- The update of every entry, the degree a vector over the nodes. -/
def update (h s : FVec Ideal NF .f32) (d : FVec Ideal Nv .f32) : FVec Ideal NF .f32 :=
  fun i => entry (d (ix1 (i 0))) (s i) (h i)

/-- The update of every entry, the degree a column over the nodes. -/
def updateCol (h s : FVec Ideal NF .f32) (d : FVec Ideal Nc .f32) : FVec Ideal NF .f32 :=
  fun i => entry (d (ix2 (i 0) 0)) (s i) (h i)

/-- The degree vector laid out as a column holds node `n`'s degree at `(n, 0)`: both have row-major position `n`. -/
theorem reshape_col (d : FVec Ideal Nv .f32) (hc : Nv.ShapeCasts Nc) (n : Fin 65536) :
    shapeCast Nc d hc (ix2 n 0) = d (ix1 n) :=
  shapeCast_apply d hc (ix2 n 0) (ix1 n) (by
    rw [Shape.rowMajor_val_one, Shape.rowMajor_val_two]
    show n.val = n.val * 1 + 0
    omega)

/-- So the update through the column layout is the update through the vector. -/
theorem updateCol_reshape (h s : FVec Ideal NF .f32) (d : FVec Ideal Nv .f32) (hc : Nv.ShapeCasts Nc) :
    updateCol h s (shapeCast Nc d hc) = update h s d := by
  funext i
  exact congrArg (fun z => entry z (s i) (h i)) (reshape_col d hc (i 0))

end Cert.Update

end
-- ==== Proof.Payload.lean ====
/-
  What the kernel body stores, read entry by entry.

  The body works on one block of 4096 nodes: it loads the block's degree column (4096 × 1), its message sums
  and its old features (4096 × 64 each), spreads the column over the 64 features, and stores, at entry
  `(p, q)`, the quotient of the sum by `max degree 1` where the degree is positive and the old entry where it
  is not. The shape casts in the body are casts of a shape to itself, so they change nothing; the spread of
  the column reads `(p, 0)` at every `(p, q)`. Hence the stored entry is `Update.entry` of the column at
  `(p, 0)` and of the two blocks at `(p, q)`.
-/
import proofs.«104848_j57664230916668_1_alg».proof.Proof.Gen.KernelIdeal.Skeleton
import proofs.«104848_j57664230916668_1_alg».proof.Proof.Update
import Idealize.ShloMosaic.Lib.ValueIdx
import Idealize.ShloMosaic.Lib.Pipeline.Value

noncomputable section

namespace Cert.Payload

open Cert.KernelIdeal Cert.KernelIdeal.Gen Idealize.ShloMosaic Idealize.ShloMosaic.ValueIdx

/-- The block's column spread over the 64 features reads `(p, 0)` at every `(p, q)`. -/
theorem spread_apply {α : Type} (v : S4096x1.Idx → α) (p : Fin 4096) (q : Fin 64) :
    broadcastTo S4096x64 v broadcasts_S4096x1_S4096x64 (ix2 p q) = v (ix2 p 0) :=
  broadcastTo_apply v broadcasts_S4096x1_S4096x64 (ix2 p q) (ix2 p 0) (fun a => match a with
    | ⟨0, _⟩ => by show p.val = if (4096 : Nat) = 1 then 0 else p.val; rw [if_neg (by decide)]
    | ⟨1, _⟩ => by show (0 : Nat) = if (1 : Nat) = 1 then 0 else q.val; rw [if_pos rfl])

/-- The stored value at entry `(p, q)` of the block: the update of that entry from the block's degree at row `p`. -/
theorem pay_apply (deg : FVec Ideal S4096x1 .f32) (sum old : FVec Ideal S4096x64 .f32) (p : Fin 4096) (q : Fin 64) :
    k0_pay1 (F := Ideal) deg sum old (ix2 p q)
      = Cert.Update.entry (deg (ix2 p 0)) (sum (ix2 p q)) (old (ix2 p q)) := by
  unfold k0_pay1
  simp only [shapeCast_self]
  show Scalar.select (FloatOps.cmpf .ogt (broadcastTo S4096x64 deg broadcasts_S4096x1_S4096x64 (ix2 p q))
        (FloatOps.ofBits (F := Ideal) .f32 0x00000000#32))
      (FloatOps.divf (sum (ix2 p q)) (FloatOps.maximumf (broadcastTo S4096x64 deg broadcasts_S4096x1_S4096x64 (ix2 p q))
        (FloatOps.ofBits (F := Ideal) .f32 0x3F800000#32)))
      (old (ix2 p q)) = _
  rw [spread_apply]
  rfl

end Cert.Payload

end
-- ==== Proof.Blocks.lean ====
/-
  From the sixteen blocks to the whole array.

  The call runs over a grid of 16 points. At point `t` every window sits at block `(t, 0)`: rows
  `4096·t … 4096·t + 4095` of the old features, of the message sums, of the degree column, and of the result.
  So entry `(p, q)` of the block written back at `t` is entry `(4096·t + p, q)` of the result, computed from
  the same entry of the sums and of the old features and from row `4096·t + p` of the degree column: the
  block written back is the block, at `t`, of ONE function of the three whole arrays, the node update
  (`flushed_eq`). Node `n` lies in the block of point `n / 4096`, so the sixteen blocks cover the array
  (`cover`), and the array ends holding the update of the arrays the call was launched on (`final`).
-/
import proofs.«104848_j57664230916668_1_alg».proof.Proof.Gen.KernelIdeal.Frame
import proofs.«104848_j57664230916668_1_alg».proof.Proof.Payload
import proofs.«104848_j57664230916668_1_alg».proof.Proof.Update
import Idealize.ShloMosaic.Lib.Pipeline.Value
import Idealize.ShloMosaic.Lib.ValueIdx

set_option maxRecDepth 16384

noncomputable section

namespace Cert.Blocks

open Cert.KernelIdeal Cert.KernelIdeal.Gen Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ)

/-- The body's one store starts at the block's origin. -/
theorem origin : (![0, 0] : Fin 2 → Nat) = fun _ => 0 := funext fun a => by fin_cases a <;> rfl

/-- At point `t` every window is at block `(t, 0)`: decided over the sixteen points. -/
theorem index_facts : ∀ t : Fin cfg0.N,
      win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Every block row `b < 16` is some point's. -/
theorem index_onto : ∀ b : Fin 16, ∃ t : Fin cfg0.N, win0_3.index t = ![b.val, 0] :=
  (by decide +kernel : ∀ b : Fin 16, ∃ t : Fin grid0.N, win0_3.index t = ![b.val, 0])

/-- One stored entry lands on one entry of the update: if entry `(p, q)` of the block is entry `(n, f)` of the
    arrays for the sums and the old features, and row `p` of the block's degree column is row `n` of the whole
    column, then what the body stores there is the update at `(n, f)`. -/
theorem stored_is_update (deg : FVec Ideal S4096x1 .f32) (sum old : FVec Ideal S4096x64 .f32)
    (H S : FVec Ideal Cert.Update.NF .f32) (D : FVec Ideal Cert.Update.Nc .f32)
    (p : Fin 4096) (q : Fin 64) (n : Fin 65536) (f : Fin 64)
    (hold : old (ix2 p q) = H (ix2 n f)) (hsum : sum (ix2 p q) = S (ix2 n f)) (hdeg : deg (ix2 p 0) = D (ix2 n 0)) :
    k0_pay1 (F := Ideal) deg sum old (ix2 p q) = Cert.Update.updateCol H S D (ix2 n f) := by
  rw [Cert.Payload.pay_apply, hold, hsum, hdeg]
  rfl

/-- WHAT POINT `t` WRITES BACK is block `t` of the update of the three arrays as the call finds them. -/
theorem flushed_eq (c : Dev nD) (t : Fin cfg0.N) :
    (dats m 0 c).flushed 3 t = ((cfg0.win 3).blk t).view.read (Elt Ideal)
      (Cert.Update.updateCol (V m c main_v0) (V m c main_v10) (V m c main_v15)) := by
  show (cfg0.win 3).cut (grid0.coords t) ((dats m 0 c).after 3 t) = _
  rw [after0_3]
  unfold out0_3
  rw [View.canon_unit_zero origin]
  simp only [View.ld_unit_zero (S := S4096x64) origin, View.ld_unit_zero (S := S4096x1) origin]
  have ht : t.val < 16 := by have h : t.val < grid0.N := t.isLt; rw [N_0] at h; exact h
  obtain ⟨a0, b0, a1, b1, a2, b2, a3, b3⟩ := index_facts t
  funext j
  have hj0 : (j 0).val < 4096 := (j 0).isLt
  have hj1 : (j 1).val < 64 := (j 1).isLt
  show k0_pay1 (F := Ideal) (iblk m c 2 t) (iblk m c 1 t) (iblk m c 0 t) ((win0 3).xinj (grid0.coords t) j) = _
  rw [View.read_apply]
  rw [cast_eq]
  have hn : t.val * 4096 + (j 0).val < 65536 := by omega
  have ej : (win0 3).xinj (grid0.coords t) j = ix2 (⟨(j 0).val, hj0⟩ : Fin 4096) (⟨(j 1).val, hj1⟩ : Fin 64) := by
    funext a
    match a with
    | ⟨0, _⟩ => rfl
    | ⟨1, _⟩ => rfl
  have ei : ((View.whole main_v16).slice ((win0 3).rect t)).emb j = ix2 (⟨t.val * 4096 + (j 0).val, hn⟩ : Fin 65536) (⟨(j 1).val, hj1⟩ : Fin 64) := by
    funext a; apply Fin.ext
    match a with
    | ⟨0, _⟩ => show win0_3.index t (0 : Fin 2) * 4096 + 1 * (j 0).val = t.val * 4096 + (j 0).val; omega
    | ⟨1, _⟩ => show win0_3.index t (1 : Fin 2) * 64 + 1 * (j 1).val = (j 1).val; omega
  have hold : iblk m c 0 t (ix2 (⟨(j 0).val, hj0⟩ : Fin 4096) (⟨(j 1).val, hj1⟩ : Fin 64))
      = V m c main_v0 (ix2 (⟨t.val * 4096 + (j 0).val, hn⟩ : Fin 65536) (⟨(j 1).val, hj1⟩ : Fin 64)) := by
    unfold iblk
    rw [View.read_apply, cast_eq]
    refine congrArg (V m c main_v0) ?_
    funext a; apply Fin.ext
    match a with
    | ⟨0, _⟩ => show win0_0.index t (0 : Fin 2) * 4096 + 1 * (j 0).val = t.val * 4096 + (j 0).val; omega
    | ⟨1, _⟩ => show win0_0.index t (1 : Fin 2) * 64 + 1 * (j 1).val = (j 1).val; omega
  have hsum : iblk m c 1 t (ix2 (⟨(j 0).val, hj0⟩ : Fin 4096) (⟨(j 1).val, hj1⟩ : Fin 64))
      = V m c main_v10 (ix2 (⟨t.val * 4096 + (j 0).val, hn⟩ : Fin 65536) (⟨(j 1).val, hj1⟩ : Fin 64)) := by
    unfold iblk
    rw [View.read_apply, cast_eq]
    refine congrArg (V m c main_v10) ?_
    funext a; apply Fin.ext
    match a with
    | ⟨0, _⟩ => show win0_1.index t (0 : Fin 2) * 4096 + 1 * (j 0).val = t.val * 4096 + (j 0).val; omega
    | ⟨1, _⟩ => show win0_1.index t (1 : Fin 2) * 64 + 1 * (j 1).val = (j 1).val; omega
  have hdeg : iblk m c 2 t (ix2 (⟨(j 0).val, hj0⟩ : Fin 4096) (0 : Fin 1))
      = V m c main_v15 (ix2 (⟨t.val * 4096 + (j 0).val, hn⟩ : Fin 65536) (0 : Fin 1)) := by
    unfold iblk
    rw [View.read_apply, cast_eq]
    refine congrArg (V m c main_v15) ?_
    funext a; apply Fin.ext
    match a with
    | ⟨0, _⟩ => show win0_2.index t (0 : Fin 2) * 4096 + 1 * (j 0).val = t.val * 4096 + (j 0).val; omega
    | ⟨1, _⟩ => show win0_2.index t (1 : Fin 2) * 1 + 1 * 0 = 0; omega
  rw [ej, ei]
  exact stored_is_update (iblk m c 2 t) (iblk m c 1 t) (iblk m c 0 t) (V m c main_v0) (V m c main_v10) (V m c main_v15)
    (⟨(j 0).val, hj0⟩ : Fin 4096) (⟨(j 1).val, hj1⟩ : Fin 64) (⟨t.val * 4096 + (j 0).val, hn⟩ : Fin 65536) (⟨(j 1).val, hj1⟩ : Fin 64) hold hsum hdeg

/-- An entry of the result is in point `t`'s block iff each coordinate is in the block's range on its axis. -/
theorem mem_blk (t : Fin cfg0.N) (i : S65536x64.Idx) :
    i ∈ ((cfg0.win 3).blk t).view.set ↔ ∀ a : Fin 2, win0_3.index t a * S4096x64.size a ≤ (i a).val
      ∧ (i a).val < win0_3.index t a * S4096x64.size a + S4096x64.size a := by
  show i ∈ ((View.whole main_v16).slice (win0_3.rect t)).set ↔ _
  rw [View.set_slice_whole, Rect.mem_set_unit]
  exact Iff.rfl

/-- Every entry of the result is in the block some point writes back: node `n` in that of point `n / 4096`. -/
theorem cover (i : S65536x64.Idx) :
    ∃ t : Fin cfg0.N, (cfg0.win 3).flush t = true ∧ i ∈ ((cfg0.win 3).blk t).view.set := by
  have hi0 : (i 0).val < 65536 := (i 0).isLt
  have hi1 : (i 1).val < 64 := (i 1).isLt
  obtain ⟨t, ht⟩ := index_onto ⟨(i 0).val / 4096, by omega⟩
  have q0 : win0_3.index t (0 : Fin 2) = (i 0).val / 4096 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 4096 ≤ (i 0).val ∧ (i 0).val < win0_3.index t (0 : Fin 2) * 4096 + 4096; omega
  | ⟨1, _⟩ => show win0_3.index t (1 : Fin 2) * 64 ≤ (i 1).val ∧ (i 1).val < win0_3.index t (1 : Fin 2) * 64 + 64; omega

/-- THE RESULT ARRAY after the call: the update of the three arrays the call was launched on. -/
theorem final (c : Dev nD) :
    (dats m 0 c).arrAt 3 cfg0.N = Cert.Update.updateCol (V m c main_v0) (V m c main_v10) (V m c main_v15) :=
  (dats m 0 c).arrAt_eq_of_cover 3 _ (fun t _ => flushed_eq m c t) cover

end Cert.Blocks

end
-- ==== Proof.RefTail.lean ====
/-
  The reference's last stage, read entry by entry, is the node update of its three arrays.

  The reference spreads per-node quantities over the features by two broadcasts — a vector over the nodes to
  a column, the column to all 64 features — and its constants by a broadcast of a scalar. Each read at entry
  `(n, f)` lands on node `n`: so the comparison reads the degree of node `n` against 0, the divisor is
  `max (degree n) 1`, and the selection takes the quotient or the old entry, which is `Update.entry`.
  The host's division and the kernel's are one function on the extended reals.
-/
import proofs.«104848_j57664230916668_1_alg».proof.Proof.RefRun
import proofs.«104848_j57664230916668_1_alg».proof.Proof.Update
import Idealize.ShloMosaic.Lib.ValueIdx
import Idealize.ShloMosaic.Lib.Pipeline.Value

noncomputable section

namespace Cert.RefTail

open Cert.ReferenceIdeal Cert.ReferenceIdeal.Gen Idealize.ShloMosaic Idealize.ShloMosaic.ValueIdx

variable {α : Type}

/-- A vector over the nodes laid out as a column reads node `n` at `(n, 0)`. -/
theorem col_apply (y : S65536.Idx → α) (n : Fin 65536) :
    broadcastInDim S65536x1 ![0] bcast_S65536_S65536x1_0 y (ix2 n 0) = y (ix1 n) :=
  broadcastInDim_apply _ bcast_S65536_S65536x1_0 y (ix2 n 0) (ix1 n) (fun a => match a with
    | ⟨0, _⟩ => by show n.val = if (65536 : Nat) = 1 then 0 else n.val; rw [if_neg (by decide)])

/-- A column spread over the 64 features reads `(n, 0)` at every `(n, f)`. -/
theorem spread_apply (y : S65536x1.Idx → α) (n : Fin 65536) (f : Fin 64) :
    broadcastInDim S65536x64 ![0, 1] bcast_S65536x1_S65536x64_0_1 y (ix2 n f) = y (ix2 n 0) :=
  broadcastInDim_apply _ bcast_S65536x1_S65536x64_0_1 y (ix2 n f) (ix2 n 0) (fun a => match a with
    | ⟨0, _⟩ => by show n.val = if (65536 : Nat) = 1 then 0 else n.val; rw [if_neg (by decide)]
    | ⟨1, _⟩ => by show (0 : Nat) = if (1 : Nat) = 1 then 0 else f.val; rw [if_pos rfl])

/-- A scalar spread over a column reads the scalar everywhere. -/
theorem scalar_col_apply (y : S_.Idx → α) (i : S65536x1.Idx) :
    broadcastInDim S65536x1 ![] bcast_S_S65536x1 y i = y ix0 :=
  broadcastInDim_apply _ bcast_S_S65536x1 y i ix0 (fun a => a.elim0)

/-- A scalar spread over a vector reads the scalar everywhere. -/
theorem scalar_vec_apply (y : S_.Idx → α) (i : S65536.Idx) :
    broadcastInDim S65536 ![] bcast_S_S65536 y i = y ix0 :=
  broadcastInDim_apply _ bcast_S_S65536 y i ix0 (fun a => a.elim0)

/-- The reference's mask at `(n, f)` compares node `n`'s degree with 0. -/
theorem hasEdge_apply (d : FVec Ideal S65536 .f32) (n : Fin 65536) (f : Fin 64) :
    Cert.RefRun.hasEdge (F := Ideal) d (ix2 n f)
      = FloatOps.cmpf .ogt (d (ix1 n)) (FloatOps.ofBits (F := Ideal) .f32 0x00000000#32) := by
  unfold Cert.RefRun.hasEdge
  rw [spread_apply]
  show FloatOps.cmpf .ogt (broadcastInDim S65536x1 ![0] bcast_S65536_S65536x1_0 d (ix2 n 0))
      (broadcastInDim S65536x1 ![] bcast_S_S65536x1 (constant (F := Ideal) S_ .f32 0x00000000#32) (ix2 n 0)) = _
  rw [col_apply, scalar_col_apply]
  rfl

/-- The reference's divisor at `(n, f)` is node `n`'s degree clamped below at 1. -/
theorem denom_apply (d : FVec Ideal S65536 .f32) (n : Fin 65536) (f : Fin 64) :
    Cert.RefRun.denom (F := Ideal) d (ix2 n f)
      = FloatOps.maximumf (d (ix1 n)) (FloatOps.ofBits (F := Ideal) .f32 0x3F800000#32) := by
  unfold Cert.RefRun.denom
  rw [spread_apply, col_apply]
  show FloatOps.maximumf (d (ix1 n))
      (broadcastInDim S65536 ![] bcast_S_S65536 (constant (F := Ideal) S_ .f32 0x3F800000#32) (ix1 n)) = _
  rw [scalar_vec_apply]
  rfl

/-- Entry by entry, the reference's last stage is the node update. -/
theorem tail_eq (h s : FVec Ideal S65536x64 .f32) (d : FVec Ideal S65536 .f32) :
    Cert.RefRun.tail (F := Ideal) h s d = Cert.Update.update h s d := by
  funext i
  obtain ⟨n, f, rfl⟩ : ∃ (n : Fin 65536) (f : Fin 64), i = ix2 n f := ⟨i 0, i 1, eq_ix2 i⟩
  show Scalar.select (Cert.RefRun.hasEdge (F := Ideal) d (ix2 n f))
      (FloatOps.hostDivf (s (ix2 n f)) (Cert.RefRun.denom (F := Ideal) d (ix2 n f))) (h (ix2 n f))
    = Cert.Update.entry (d (ix1 n)) (s (ix2 n f)) (h (ix2 n f))
  rw [hasEdge_apply, denom_apply]
  rfl

end Cert.RefTail

end
-- ==== Proof.KernelRun.lean ====
/-
  The kernel program's run, with its result named.

  Before the call the program computes, by host operations, the three arrays the call is launched on: the
  features as rows, the per-node message sums, and the per-node degree as a column. They are the same
  operations, with the same dimension records, as the reference's first stages, so the arrays are the
  reference's `rows`, `msgSum` and `degree` of the arguments (`found_rows`, `found_sums`, `found_degree`;
  the degree through one reshape to a column).
  The call leaves the node update of those three arrays in its result array (`Blocks.final`), and the one
  host operation after the call reshapes that array to 8 × 8192 × 64 (`tail_value`).
  The update through the column is the update through the vector (`Update.updateCol_reshape`), which is the
  reference's last stage read entry by entry (`RefTail.tail_eq`): so the result buffer ends at the
  reference's own `result` of the three arguments (`value_eq`, `run`).
-/
import proofs.«104848_j57664230916668_1_alg».proof.Proof.Gen.KernelIdeal.Frame
import proofs.«104848_j57664230916668_1_alg».proof.Proof.Blocks
import proofs.«104848_j57664230916668_1_alg».proof.Proof.RefRun
import proofs.«104848_j57664230916668_1_alg».proof.Proof.RefTail
import proofs.«104848_j57664230916668_1_alg».proof.Proof.Update
import Idealize.ShloMosaic.Lib.StableHlo.Run

noncomputable section

namespace Cert.KernelRun

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-! ## The arrays the call is launched on -/

/-- The old features: the first argument as 65536 rows. -/
theorem found_rows (c : Dev nD) :
    V m c main_v0 = Cert.RefRun.rows (F := Ideal) (m ((c : Thread nD τ).loc main_arg0)) := by
  show StableHlo.after hostOps0 (fun b => m (c, b)) (Proc.devRef .tc main_v0) = _
  after_results
  rfl

/-- The message sums: the rows gathered at the sources and accumulated at the destinations. -/
theorem found_sums (c : Dev nD) :
    V m c main_v10 = Cert.RefRun.msgSum (F := Ideal) (m ((c : Thread nD τ).loc main_arg0))
      (m ((c : Thread nD τ).loc main_arg1)) (m ((c : Thread nD τ).loc main_arg2)) := by
  show StableHlo.after hostOps0 (fun b => m (c, b)) (Proc.devRef .tc main_v10) = _
  after_results
  rfl

/-- The degree column: a 1 accumulated per edge at its destination, laid out as a column. -/
theorem found_degree (c : Dev nD) :
    V m c main_v15 = shapeCast _ (Cert.RefRun.degree (F := Ideal) (m ((c : Thread nD τ).loc main_arg2)))
      shapeCasts_S65536_S65536x1 := by
  show StableHlo.after hostOps0 (fun b => m (c, b)) (Proc.devRef .tc main_v15) = _
  after_results
  rfl

/-! ## The result buffer -/

/-- After the call and the one host operation that follows it, the result buffer holds the call's result array,
    the update of the three arrays the call found, reshaped to 8 × 8192 × 64. -/
theorem tail_value (c : Dev nD) :
    Pipeline.afterTail₀ cfgs (dats m) 0 (V0 m) [hostOps1] c main_v17
      = shapeCast _ (Cert.Update.updateCol (V m c main_v0) (V m c main_v10) (V m c main_v15))
          shapeCasts_S65536x64_S8x8192x64 := by
  have e : Pipeline.withArrays spec0 c (V0 m c) (fun w => (dats m 0 c).arrAt w cfg0.N) (Proc.devRef .tc main_v16)
      = Cert.Update.updateCol (V m c main_v0) (V m c main_v10) (V m c main_v15) :=
    (Pipeline.withArrays_arr spec0 launch0.win.arr_inj c _ _ 3).trans (Cert.Blocks.final m c)
  unfold Pipeline.afterTail₀
  show StableHlo.after hostOps1 _ (Proc.devRef .tc main_v17) = _
  after_results
  rw [e]
  rfl

/-- That value is the reference's `result` of the three arguments. -/
theorem value_eq (c : Dev nD) :
    shapeCast _ (Cert.Update.updateCol (V m c main_v0) (V m c main_v10) (V m c main_v15)) shapeCasts_S65536x64_S8x8192x64
      = Cert.RefRun.result (F := Ideal) (m ((c : Thread nD τ).loc main_arg0)) (m ((c : Thread nD τ).loc main_arg1))
          (m ((c : Thread nD τ).loc main_arg2)) := by
  rw [found_rows, found_sums, found_degree, Cert.Update.updateCol_reshape, ← Cert.RefTail.tail_eq]
  rfl

/-! ## The run -/

/-- Every weakly fair execution of the kernel program terminates with the result buffer at the reference's `result`
    of the three arguments, and the arguments unchanged. -/
theorem run : θ_run defs (onTc (τ := τ) (main (F := Ideal))) ⟨m, fun _ => 0, ρ⟩ fun r => ∀ c : Dev nD,
      r.2.mem ((c : Thread nD τ).loc main_v17) = Cert.RefRun.result (F := Ideal) (m ((c : Thread nD τ).loc main_arg0))
          (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
    ⟨((h c).2 main_v17 (Pipeline.mem_restRefs_of main_v17 (by decide) (by decide))).trans ((tail_value m c).trans (value_eq m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelRun

end
-- ==== Proof.lean ====
/-
  Mean aggregation over a graph: the kernel program against its reference.

  Both programs take node features `h` (8 × 8192 × 64, read as 65536 nodes × 64 features) and two edge lists
  `src`, `dst` (1048576 edges), and return, for node `n` and feature `f`,

      s(n, f) / max(d(n), 1)   if d(n) > 0,      h(n, f)   otherwise,

  where `s(n, ·)` is the sum of the rows `h(src e, ·)` over the edges `e` with `dst e = n` and `d(n)` is the
  number of such edges. Both compute `s` and `d` by the same host operations (a gather of rows and two
  accumulating scatters); they differ only in the last step. The reference applies the formula to the whole
  arrays with host operations. The kernel program lays `d` out as a column and launches one call over a grid
  of 16 points, each applying the formula to a block of 4096 nodes, then reshapes the result.

  On the extended reals the two last steps are the same function entry by entry: the kernel's division and the
  host's are one function, the comparison and the maximum are the same, and the numbers 1 and 0 are the same
  float patterns on both sides. No law of arithmetic is used beyond that, so the precondition (finite features)
  is never opened. The modules:
    Update     the formula as one function of `h`, `s`, `d`, with `d` a vector or a column;
    RefRun     the reference's run: its result buffer ends at `result` of the arguments;
    RefTail    the reference's last stage is the formula, entry by entry;
    Payload    what the kernel body stores is the formula, entry by entry of a block;
    Blocks     the sixteen blocks written back are the blocks of the formula over the whole arrays, and cover it;
    KernelRun  the arrays the call is launched on are the reference's `h`, `s`, `d`; the run with its result named.
  The three frames: the two kernel programs' are the generated frame proofs; the reference's is its run with
  the result forgotten. The idealized kernel is the kernel's own text read on the extended reals (no rewrite
  was applied), so there is nothing to preserve.
-/
import proofs.«104848_j57664230916668_1_alg».proof.Defs
import proofs.«104848_j57664230916668_1_alg».proof.Proof.Gen.Kernel
import proofs.«104848_j57664230916668_1_alg».proof.Proof.Gen.Kernel.Skeleton
import proofs.«104848_j57664230916668_1_alg».proof.Proof.Gen.Kernel.Launch
import proofs.«104848_j57664230916668_1_alg».proof.Proof.Gen.Kernel.Points
import proofs.«104848_j57664230916668_1_alg».proof.Proof.Gen.Kernel.Frame
import proofs.«104848_j57664230916668_1_alg».proof.Proof.Gen.KernelIdeal
import proofs.«104848_j57664230916668_1_alg».proof.Proof.Gen.KernelIdeal.Skeleton
import proofs.«104848_j57664230916668_1_alg».proof.Proof.Gen.KernelIdeal.Launch
import proofs.«104848_j57664230916668_1_alg».proof.Proof.Gen.KernelIdeal.Points
import proofs.«104848_j57664230916668_1_alg».proof.Proof.Gen.KernelIdeal.Frame
import proofs.«104848_j57664230916668_1_alg».proof.Proof.Gen.ReferenceIdeal
import proofs.«104848_j57664230916668_1_alg».proof.Proof.Gen.Pre_finite_inputs
import proofs.«104848_j57664230916668_1_alg».proof.Proof.RefRun
import proofs.«104848_j57664230916668_1_alg».proof.Proof.KernelRun
import Idealize.ShloMosaic.Adequacy
import Idealize.ShloMosaic.Init

noncomputable section

namespace Cert.Proof

open Idealize.ShloMosaic Idealize.SL.Sem

/-- The kernel program runs and leaves its arguments as they were. -/
theorem frame_kernel : Cert.frame_Kernel := fun m ρ _ => Cert.Kernel.Gen.frame m ρ

/-- So does the kernel program read on the extended reals. -/
theorem frame_kernelIdeal : Cert.frame_KernelIdeal := fun m ρ _ => Cert.KernelIdeal.Gen.frame m ρ

/-- So does the reference: its run, the result forgotten. -/
theorem frame_reference : Cert.frame_ReferenceIdeal := fun m ρ _ =>
  (θ_run Cert.ReferenceIdeal.defs _ _).mono (fun _ h c => (h c).2) (Cert.RefRun.run (F := Ideal) m ρ)

/-- No operation of the kernel program was rewritten for the extended reals. -/
theorem preserves : Cert.preserves_Kernel_KernelIdeal := trivial

/-- From memories that agree on the three arguments both programs end with the same result: the reference's
    `result` of the arguments, which the kernel program reaches block by block and the reference at once. -/
theorem algebraic : Cert.algebraic_KernelIdeal_ReferenceIdeal := by
  intro m ρ m' ρ' _ hagree
  refine ⟨_, Cert.KernelRun.run m ρ, ?_⟩
  refine (θ_run Cert.ReferenceIdeal.defs _ _).mono (fun _ h c => ⟨(h c).1.trans ?_, (h c).2⟩)
    (Cert.RefRun.run (F := Ideal) m' ρ')
  rw [(hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
